-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  main_v53

def fn_part2 {F : FTy → Type} [FloatOps F] (main_arg7 : FVec F S1024 .f32) (main_arg8 : FVec F S1024x1024 .f32) (main_arg9 : FVec F S1024x1024 .f32) (main_arg10 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024x1024 .f32) (main_arg10 : FVec F S1024x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024x1024 .f32) (main_arg10 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S2048x1024 : Shape := ⟨2, ![2048, 1024]⟩
abbrev S2048x2048 : Shape := ⟨2, ![2048, 2048]⟩
abbrev S3072 : Shape := ⟨1, ![3072]⟩
abbrev S1x3072 : Shape := ⟨2, ![1, 3072]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 20
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S2048x1024, .f32⟩
  | .hbm, ⟨12, _⟩ => ⟨S2048x1024, .f32⟩
  | .hbm, ⟨13, _⟩ => ⟨S2048x2048, .f32⟩
  | .hbm, ⟨14, _⟩ => ⟨S2048x2048, .bf16⟩
  | .hbm, ⟨15, _⟩ => ⟨S1024x1024, .bf16⟩
  | .hbm, ⟨16, _⟩ => ⟨S1024x1024, .bf16⟩
  | .hbm, ⟨17, _⟩ => ⟨S3072, .f32⟩
  | .hbm, ⟨18, _⟩ => ⟨S1x3072, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2048x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1x3072, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S2048x1024_d0 : Shape.Concatenates [S1024x1024, S1024x1024] S2048x1024 0
  concatenates_S2048x1024_S2048x1024_S2048x2048_d1 : Shape.Concatenates [S2048x1024, S2048x1024] S2048x2048 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  concatenates_S512x1024_S512x1024_S512x2048_d1 : Shape.Concatenates [S512x1024, S512x1024] S512x2048 1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x2048 : S1x3072.Slices ![0, 0] S1x2048
  broadcasts_S1x2048_S512x2048 : S1x2048.Broadcasts S512x2048
  slices_S512x2048_o0_0_S512x1024 : S512x2048.Slices ![0, 0] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1x3072_o0_2048_S1x1024 : S1x3072.Slices ![0, 2048] S1x1024
  broadcasts_S1x1024_S512x1024 : S1x1024.Broadcasts S512x1024
  slices_S512x2048_o0_1024_S512x1024 : S512x2048.Slices ![0, 1024] S512x1024
  dot_S512x2048_S2048x2048_S512x2048_1_0_0_1_n_n_wf : DotDims.WF S512x2048 S2048x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S16384x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelFrame.lean ====
/-
  The frame of the cell program: it runs to the end, faults nowhere, and leaves its eleven argument arrays as
  they were.

  @main first builds, on the host, the fused gate matrix (the two input-to-gate matrices stacked over the two
  state-to-gate matrices, side by side), rounds the three weight matrices it hands to the kernel, and lays the three
  biases end to end as one row; none of these writes an argument. The one region then visits 32 grid points; at
  point `t` it stages rows `512·t … 512·t+511` of the input batch and of the state, keeps the three weight
  matrices and the bias row resident, and writes back 512 rows of the result. The body loads whole staging
  buffers and stores the whole output block once, so what the output buffer holds after the body is one function
  (`newRows`) of the six input blocks; the rest is the pipeline library's frame theorem, generic in the float
  instance.
-/
import proofs.«100349_j64441689309677_2_alg».proof.Proof.Gen.Kernel.Launch
import proofs.«100349_j64441689309677_2_alg».proof.Proof.Gen.Kernel.Skeleton
import proofs.«100349_j64441689309677_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- What core `c`'s buffers hold when the region is entered: the launch memory after the eight host operations. -/
abbrev V (c : Dev nD) (b : Ref sig .tc) : Buf (Elt F) ((c : Thread nD τ).loc b) :=
  StableHlo.after hostOps0 (fun b => m (c, b)) b

/-- None of the eight host operations allocates. -/
theorem hostOps0_fresh : (hostOps0 : List (HloOp τ sig (Elt F))).Forall fun op => op.fresh = ∅ := by
  simp only [List.Forall]; repeat' constructor

/-- @main is its host operations followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write: the eight intermediate values, and nothing else. -/
abbrev hostWritten : List (Ref sig .tc) := [main_v0, main_v1, main_v2, main_v3, main_v4, main_v5, main_v6, main_v7]

theorem hostOps0_writes : (hostOps0 : List (HloOp τ sig (Elt F))).Forall fun op =>
    op.writes ⊆ (hostWritten.map (Proc.devRef (τ := τ) .tc)).toFinset := by
  simp only [hostOps0, List.Forall, StableHlo.unary_writes, StableHlo.binary_writes, StableHlo.nary_writes,
    StableHlo.reshape_writes, Finset.singleton_subset_iff, List.mem_toFinset, List.mem_map]
  refine ⟨⟨main_v0, by decide, rfl⟩, ⟨main_v1, by decide, rfl⟩, ⟨main_v2, by decide, rfl⟩, ⟨main_v3, by decide, rfl⟩,
    ⟨main_v4, by decide, rfl⟩, ⟨main_v5, by decide, rfl⟩, ⟨main_v6, by decide, rfl⟩, ⟨main_v7, by decide, rfl⟩⟩

/-- A buffer that is none of the eight intermediates — every argument array — is found by the region as launched. -/
theorem V_kept (c : Dev nD) (r : Ref sig .tc) (hr : r ∉ hostWritten) : V m c r = m ((c : Thread nD τ).loc r) :=
  StableHlo.after_of_writes_sub hostOps0 _ hostOps0_writes hr

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's staging buffer holds its block at every point, whether the point fetched it or the block
    index stood still since an earlier fetch (the weight matrices and the bias row are fetched at the first point
    only) — for any proof data over the region-entry arrays whose body leaves the block in place. The six input
    windows are uncut and never idle. -/
theorem before0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)

/-! ## The frame claim from a frame run -/

/-- A final state in which every staged array is at what the proof data computes and every other unscoped buffer as
    the region found it has the eleven argument arrays as launched: the input batch and the state are staged input
    arrays, the nine others are not staged at all, and no host operation writes any of them. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
    ⟨((h c).1 0).trans (((dats 0 c).arrAt_in 0 rfl _).trans ((hA c 0).trans (V_kept m c main_arg0 (by decide)))),
     ((h c).1 1).trans (((dats 0 c).arrAt_in 1 rfl _).trans ((hA c 1).trans (V_kept m c main_arg1 (by decide)))),
     ((h c).2 main_arg2 (Pipeline.mem_restRefs_of main_arg2 (by decide) (by decide))).trans (V_kept m c main_arg2 (by decide)),
     ((h c).2 main_arg3 (Pipeline.mem_restRefs_of main_arg3 (by decide) (by decide))).trans (V_kept m c main_arg3 (by decide)),
     ((h c).2 main_arg4 (Pipeline.mem_restRefs_of main_arg4 (by decide) (by decide))).trans (V_kept m c main_arg4 (by decide)),
     ((h c).2 main_arg5 (Pipeline.mem_restRefs_of main_arg5 (by decide) (by decide))).trans (V_kept m c main_arg5 (by decide)),
     ((h c).2 main_arg6 (Pipeline.mem_restRefs_of main_arg6 (by decide) (by decide))).trans (V_kept m c main_arg6 (by decide)),
     ((h c).2 main_arg7 (Pipeline.mem_restRefs_of main_arg7 (by decide) (by decide))).trans (V_kept m c main_arg7 (by decide)),
     ((h c).2 main_arg8 (Pipeline.mem_restRefs_of main_arg8 (by decide) (by decide))).trans (V_kept m c main_arg8 (by decide)),
     ((h c).2 main_arg9 (Pipeline.mem_restRefs_of main_arg9 (by decide) (by decide))).trans (V_kept m c main_arg9 (by decide)),
     ((h c).2 main_arg10 (Pipeline.mem_restRefs_of main_arg10 (by decide) (by decide))).trans (V_kept m c main_arg10 (by decide))⟩

/-- The frame claim's post from a run to the library's frame post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of m dats hA r h c) h

/-! ## The body -/

/-- The whole of a 512×1024 staging buffer, of the fused gate matrix's, of a square weight matrix's, of the bias row's. -/
abbrev rRows : Rect S512x1024 := Rect.unit (s := S512x1024) ![0, 0] S512x1024.size inb_S512x1024_S512x1024_0_0
abbrev rGates : Rect S2048x2048 := Rect.unit (s := S2048x2048) ![0, 0] S2048x2048.size inb_S2048x2048_S2048x2048_0_0
abbrev rSquare : Rect S1024x1024 := Rect.unit (s := S1024x1024) ![0, 0] S1024x1024.size inb_S1024x1024_S1024x1024_0_0
abbrev rBias : Rect S1x3072 := Rect.unit (s := S1x3072) ![0, 0] S1x3072.size inb_S1x3072_S1x3072_0_0

/-- What the output buffer holds after the body: its one store, of the cell's arithmetic on the six input blocks
    (the input rows, the state rows, the fused gate matrix, the input-to-candidate and state-to-candidate matrices,
    the bias row). -/
def newRows (x0 x1 : Vec F S512x1024 .f32) (x2 : Vec F S2048x2048 .bf16) (x3 x4 : Vec F S1024x1024 .bf16)
    (x5 : Vec F S1x3072 .f32) : Vec F S512x1024 .f32 :=
  View.canon [⟨rRows, k0_pay1 (View.ld x0 rRows) (View.ld x1 rRows) (View.ld x2 rGates) (View.ld x5 rBias)
    (View.ld x4 rSquare) (View.ld x3 rSquare) (View.ld x1 rRows)⟩]

/-- The one store covers the buffer. -/
theorem cover_out (p0 : Vec F S512x1024 .f32) (y : S512x1024.Idx) :
    ∃ pc ∈ ([⟨rRows, p0⟩] : List (View.Piece (Elt F) S512x1024 .f32)), y ∈ pc.1.set :=
  View.cover_of_tiled [⟨rRows, p0⟩] S512x1024.size (by rfl) y

set_option maxHeartbeats 1000000 in
/-- The body on whole staging buffers: the six inputs' at their contents, the output's at anything, runs to the end
    leaving the inputs' as they were and the output's at `newRows` of them. -/
theorem sound_kernel (c : Dev nD) (E : Set ℕ) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S2048x2048 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x3072 .f32) (harg6 : arg6.IsWhole)
    (arg7 : Memref sig .tc .vmem S512x1024 .f32) (harg7 : arg7.IsWhole)
    (x0 x1 : Vec F S512x1024 .f32) (x2 : Vec F S2048x2048 .bf16) (x3 x4 : Vec F S1024x1024 .bf16)
    (x5 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (newRows x0 x1 x2 x3 x4 x5)) -∗ K ⟨⟩))
      ⊢ wp frame (wpE (defs₀ (F := F)) Variants.none c none) E
          (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The pipeline's proof data -/

/-- The proof data of the one pipeline on core `c`: the arrays as the region finds them; after the body at point
    `t` each input's buffer still at its block and the output's at `newRows` of the six input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newRows (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = newRows (iblk m c 0 t) (iblk m c 1 t) (iblk m c 2 t) (iblk m c 3 t) (iblk m c 4 t) (iblk m c 5 t) := by
  dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t)
    (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every staged array ending at
    what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.KernelIdealFrame.lean ====
/-
  The frame of the cell program: it runs to the end, faults nowhere, and leaves its eleven argument arrays as
  they were.

  @main first builds, on the host, the fused gate matrix (the two input-to-gate matrices stacked over the two
  state-to-gate matrices, side by side), rounds the three weight matrices it hands to the kernel, and lays the three
  biases end to end as one row; none of these writes an argument. The one region then visits 32 grid points; at
  point `t` it stages rows `512·t … 512·t+511` of the input batch and of the state, keeps the three weight
  matrices and the bias row resident, and writes back 512 rows of the result. The body loads whole staging
  buffers and stores the whole output block once, so what the output buffer holds after the body is one function
  (`newRows`) of the six input blocks; the rest is the pipeline library's frame theorem, generic in the float
  instance.
-/
import proofs.«100349_j64441689309677_2_alg».proof.Proof.Gen.KernelIdeal.Launch
import proofs.«100349_j64441689309677_2_alg».proof.Proof.Gen.KernelIdeal.Skeleton
import proofs.«100349_j64441689309677_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- What core `c`'s buffers hold when the region is entered: the launch memory after the eight host operations. -/
abbrev V (c : Dev nD) (b : Ref sig .tc) : Buf (Elt F) ((c : Thread nD τ).loc b) :=
  StableHlo.after hostOps0 (fun b => m (c, b)) b

/-- None of the eight host operations allocates. -/
theorem hostOps0_fresh : (hostOps0 : List (HloOp τ sig (Elt F))).Forall fun op => op.fresh = ∅ := by
  simp only [List.Forall]; repeat' constructor

/-- @main is its host operations followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write: the eight intermediate values, and nothing else. -/
abbrev hostWritten : List (Ref sig .tc) := [main_v0, main_v1, main_v2, main_v3, main_v4, main_v5, main_v6, main_v7]

theorem hostOps0_writes : (hostOps0 : List (HloOp τ sig (Elt F))).Forall fun op =>
    op.writes ⊆ (hostWritten.map (Proc.devRef (τ := τ) .tc)).toFinset := by
  simp only [hostOps0, List.Forall, StableHlo.unary_writes, StableHlo.binary_writes, StableHlo.nary_writes,
    StableHlo.reshape_writes, Finset.singleton_subset_iff, List.mem_toFinset, List.mem_map]
  refine ⟨⟨main_v0, by decide, rfl⟩, ⟨main_v1, by decide, rfl⟩, ⟨main_v2, by decide, rfl⟩, ⟨main_v3, by decide, rfl⟩,
    ⟨main_v4, by decide, rfl⟩, ⟨main_v5, by decide, rfl⟩, ⟨main_v6, by decide, rfl⟩, ⟨main_v7, by decide, rfl⟩⟩

/-- A buffer that is none of the eight intermediates — every argument array — is found by the region as launched. -/
theorem V_kept (c : Dev nD) (r : Ref sig .tc) (hr : r ∉ hostWritten) : V m c r = m ((c : Thread nD τ).loc r) :=
  StableHlo.after_of_writes_sub hostOps0 _ hostOps0_writes hr

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's staging buffer holds its block at every point, whether the point fetched it or the block
    index stood still since an earlier fetch (the weight matrices and the bias row are fetched at the first point
    only) — for any proof data over the region-entry arrays whose body leaves the block in place. The six input
    windows are uncut and never idle. -/
theorem before0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)

/-! ## The frame claim from a frame run -/

/-- A final state in which every staged array is at what the proof data computes and every other unscoped buffer as
    the region found it has the eleven argument arrays as launched: the input batch and the state are staged input
    arrays, the nine others are not staged at all, and no host operation writes any of them. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
    ⟨((h c).1 0).trans (((dats 0 c).arrAt_in 0 rfl _).trans ((hA c 0).trans (V_kept m c main_arg0 (by decide)))),
     ((h c).1 1).trans (((dats 0 c).arrAt_in 1 rfl _).trans ((hA c 1).trans (V_kept m c main_arg1 (by decide)))),
     ((h c).2 main_arg2 (Pipeline.mem_restRefs_of main_arg2 (by decide) (by decide))).trans (V_kept m c main_arg2 (by decide)),
     ((h c).2 main_arg3 (Pipeline.mem_restRefs_of main_arg3 (by decide) (by decide))).trans (V_kept m c main_arg3 (by decide)),
     ((h c).2 main_arg4 (Pipeline.mem_restRefs_of main_arg4 (by decide) (by decide))).trans (V_kept m c main_arg4 (by decide)),
     ((h c).2 main_arg5 (Pipeline.mem_restRefs_of main_arg5 (by decide) (by decide))).trans (V_kept m c main_arg5 (by decide)),
     ((h c).2 main_arg6 (Pipeline.mem_restRefs_of main_arg6 (by decide) (by decide))).trans (V_kept m c main_arg6 (by decide)),
     ((h c).2 main_arg7 (Pipeline.mem_restRefs_of main_arg7 (by decide) (by decide))).trans (V_kept m c main_arg7 (by decide)),
     ((h c).2 main_arg8 (Pipeline.mem_restRefs_of main_arg8 (by decide) (by decide))).trans (V_kept m c main_arg8 (by decide)),
     ((h c).2 main_arg9 (Pipeline.mem_restRefs_of main_arg9 (by decide) (by decide))).trans (V_kept m c main_arg9 (by decide)),
     ((h c).2 main_arg10 (Pipeline.mem_restRefs_of main_arg10 (by decide) (by decide))).trans (V_kept m c main_arg10 (by decide))⟩

/-- The frame claim's post from a run to the library's frame post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of m dats hA r h c) h

/-! ## The body -/

/-- The whole of a 512×1024 staging buffer, of the fused gate matrix's, of a square weight matrix's, of the bias row's. -/
abbrev rRows : Rect S512x1024 := Rect.unit (s := S512x1024) ![0, 0] S512x1024.size inb_S512x1024_S512x1024_0_0
abbrev rGates : Rect S2048x2048 := Rect.unit (s := S2048x2048) ![0, 0] S2048x2048.size inb_S2048x2048_S2048x2048_0_0
abbrev rSquare : Rect S1024x1024 := Rect.unit (s := S1024x1024) ![0, 0] S1024x1024.size inb_S1024x1024_S1024x1024_0_0
abbrev rBias : Rect S1x3072 := Rect.unit (s := S1x3072) ![0, 0] S1x3072.size inb_S1x3072_S1x3072_0_0

/-- What the output buffer holds after the body: its one store, of the cell's arithmetic on the six input blocks
    (the input rows, the state rows, the fused gate matrix, the input-to-candidate and state-to-candidate matrices,
    the bias row). -/
def newRows (x0 x1 : Vec F S512x1024 .f32) (x2 : Vec F S2048x2048 .bf16) (x3 x4 : Vec F S1024x1024 .bf16)
    (x5 : Vec F S1x3072 .f32) : Vec F S512x1024 .f32 :=
  View.canon [⟨rRows, k0_pay1 (View.ld x0 rRows) (View.ld x1 rRows) (View.ld x2 rGates) (View.ld x5 rBias)
    (View.ld x4 rSquare) (View.ld x3 rSquare) (View.ld x1 rRows)⟩]

/-- The one store covers the buffer. -/
theorem cover_out (p0 : Vec F S512x1024 .f32) (y : S512x1024.Idx) :
    ∃ pc ∈ ([⟨rRows, p0⟩] : List (View.Piece (Elt F) S512x1024 .f32)), y ∈ pc.1.set :=
  View.cover_of_tiled [⟨rRows, p0⟩] S512x1024.size (by rfl) y

set_option maxHeartbeats 1000000 in
/-- The body on whole staging buffers: the six inputs' at their contents, the output's at anything, runs to the end
    leaving the inputs' as they were and the output's at `newRows` of them. -/
theorem sound_kernel (c : Dev nD) (E : Set ℕ) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S2048x2048 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x3072 .f32) (harg6 : arg6.IsWhole)
    (arg7 : Memref sig .tc .vmem S512x1024 .f32) (harg7 : arg7.IsWhole)
    (x0 x1 : Vec F S512x1024 .f32) (x2 : Vec F S2048x2048 .bf16) (x3 x4 : Vec F S1024x1024 .bf16)
    (x5 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (newRows x0 x1 x2 x3 x4 x5)) -∗ K ⟨⟩))
      ⊢ wp frame (wpE (defs₀ (F := F)) Variants.none c none) E
          (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The pipeline's proof data -/

/-- The proof data of the one pipeline on core `c`: the arrays as the region finds them; after the body at point
    `t` each input's buffer still at its block and the output's at `newRows` of the six input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newRows (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = newRows (iblk m c 0 t) (iblk m c 1 t) (iblk m c 2 t) (iblk m c 3 t) (iblk m c 4 t) (iblk m c 5 t) := by
  dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t)
    (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every staged array ending at
    what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.GruSpec.lean ====
/-
  The gated recurrent cell as one function of its eleven argument arrays over the extended reals.

  For a batch row `p` and a hidden unit `n`, with `x·W` the row-by-column product `∑ k, x(p,k) · W(k,n)`:
    r  = σ((x·W_ir + b_ir) + h·W_hr)            the reset gate
    z  = σ((x·W_iz + b_iz) + h·W_hz)            the update gate
    h₁ = tanh((x·W_ih + b_ih) + r · (h·W_hh))   the candidate state
    out = (1 − z) · h₁ + z · h(p,n)
  where `σ y = 1 / (1 + e^(−y))` and `tanh` are the total functions of the exact instance.
  This module imports no program: it is the meeting point of the two sides.
-/
import Idealize.ShloMosaic.PureOps.Ideal
import Idealize.ShloMosaic.Lib.ValueIdx

noncomputable section

namespace Cert.Gru

open Idealize.ShloMosaic Idealize.ShloMosaic.ValueIdx

/-- A batch of 16384 rows of 1024 numbers. -/
abbrev Act := (⟨2, ![16384, 1024]⟩ : Shape).Idx → EReal
/-- A square weight matrix, input unit by output unit. -/
abbrev Wgt := (⟨2, ![1024, 1024]⟩ : Shape).Idx → EReal
/-- One number per output unit. -/
abbrev Bias := (⟨1, ![1024]⟩ : Shape).Idx → EReal

/-- Row `p` of `a` against column `n` of `w`. -/
def dot (a : Act) (w : Wgt) (p : Fin 16384) (n : Fin 1024) : EReal :=
  ∑ k : Fin 1024, a (ix2 p k) * w (ix2 k n)

/-- A gate: the logistic function of the input's and the state's linear images and the bias, summed in the
    order `(x·W + b) + h·U`. -/
def gate (x h : Act) (w : Wgt) (b : Bias) (u : Wgt) (p : Fin 16384) (n : Fin 1024) : EReal :=
  Ideal.logistic ((dot x w p n + b (ix1 n)) + dot h u p n)

/-- The candidate state: the reset gate scales the state's linear image before the hyperbolic tangent. -/
def cand (x h : Act) (wir : Wgt) (bir : Bias) (whr : Wgt) (wih : Wgt) (bih : Bias) (whh : Wgt)
    (p : Fin 16384) (n : Fin 1024) : EReal :=
  Ideal.tanh ((dot x wih p n + bih (ix1 n)) + gate x h wir bir whr p n * dot h whh p n)

/-- The new state at row `p`, unit `n`: the update gate's mixture of the candidate and the old state. -/
def cell (x h : Act) (wir : Wgt) (bir : Bias) (wiz : Wgt) (biz : Bias) (wih : Wgt) (bih : Bias)
    (whr whz whh : Wgt) (p : Fin 16384) (n : Fin 1024) : EReal :=
  (1 - gate x h wiz biz whz p n) * cand x h wir bir whr wih bih whh p n + gate x h wiz biz whz p n * h (ix2 p n)

/-- The whole result array, arguments in the programs' order. -/
def G (x h : Act) (wir : Wgt) (bir : Bias) (wiz : Wgt) (biz : Bias) (wih : Wgt) (bih : Bias)
    (whr whz whh : Wgt) : Act :=
  fun i => cell x h wir bir wiz biz wih bih whr whz whh (i 0) (i 1)

end Cert.Gru

end
-- ==== Proof.LibCellFacts.lean ====
/-
  Three facts about gated mixtures on the extended reals, for cells built from the logistic function and the
  hyperbolic tangent (gated recurrent and long short-term memory cells, gated linear units).

  * `logistic_real`: the exact instance's logistic function `1 / (1 + e^(−y))` takes a nonnegative REAL value at
    every extended real `y` (0 at −∞, 1 at +∞).
  * `tanh_real`: its hyperbolic tangent takes a real value at every extended real (−1 at −∞, 1 at +∞).
  * `mix_eq`: for a real `t`, a nonnegative real `z` and ANY extended real `v`,
    `t + z·(v − t) = (1 − z)·t + z·v`: at an infinite `v` both sides are that infinity when `z > 0` and `t` when
    `z = 0`. So the two usual spellings of a gate's mixture agree with no finiteness hypothesis on the mixed value.
-/
import Idealize.ShloMosaic.PureOps.Ideal

noncomputable section

namespace Cert.LibCellFacts

open Idealize.ShloMosaic

/-- The logistic function takes a nonnegative real value at every extended real. -/
theorem logistic_real (y : EReal) : ∃ z : ℝ, 0 ≤ z ∧ Ideal.logistic y = (z : EReal) := by
  induction y using EReal.rec with
  | bot => exact ⟨0, le_rfl, by rw [Ideal.logistic_bot, EReal.coe_zero]⟩
  | coe r => exact ⟨(1 + Real.exp (-r))⁻¹, inv_nonneg.2 (by positivity), Ideal.logistic_coe r⟩
  | top => exact ⟨1, zero_le_one, by rw [Ideal.logistic_top, EReal.coe_one]⟩

/-- The hyperbolic tangent takes a real value at every extended real. -/
theorem tanh_real (y : EReal) : ∃ t : ℝ, Ideal.tanh y = (t : EReal) := by
  induction y using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- The two spellings of the update gate's mixture agree for a real candidate, a nonnegative real gate and any
    old state: at an infinite old state both sides are that infinity when the gate is positive and the candidate
    when the gate is zero. -/
theorem mix_eq (t z : ℝ) (hz : 0 ≤ z) (v : EReal) :
    (t : EReal) + (z : EReal) * (v - (t : EReal)) = (1 - (z : EReal)) * (t : EReal) + (z : EReal) * v := by
  have h1 : (1 - (z : EReal)) * (t : EReal) = (((1 - z) * t : ℝ) : EReal) := by
    rw [← EReal.coe_one, ← EReal.coe_sub, ← EReal.coe_mul]
  rw [h1]
  induction v using EReal.rec with
  | bot =>
    rcases hz.eq_or_lt with h0 | hpos
    · subst h0
      simp
    · rw [EReal.bot_sub, EReal.coe_mul_bot_of_pos hpos, EReal.add_bot, EReal.add_bot]
  | coe r =>
    rw [← EReal.coe_sub, ← EReal.coe_mul, ← EReal.coe_add, ← EReal.coe_mul, ← EReal.coe_add]
    exact congrArg _ (by ring)
  | top =>
    rcases hz.eq_or_lt with h0 | hpos
    · subst h0
      simp
    · rw [EReal.top_sub_coe, EReal.coe_mul_top_of_pos hpos, EReal.coe_add_top, EReal.coe_add_top]

end Cert.LibCellFacts

end
-- ==== Proof.GruAlgebra.lean ====
/-
  The kernel's arrangement of the cell against the specification's, on the extended reals.

  The kernel multiplies the row `[x | h]` of width 2048 by a fused 2048×2048 gate matrix whose four quarters are
  the input-to-reset, input-to-update (top) and state-to-reset, state-to-update (bottom) matrices, adds a bias row
  holding the three biases end to end, and mixes the candidate `h₁` and the old state as `h₁ + z·(h − h₁)`.
  Two laws join it to the specification:
  * a gate's argument `(x·W + h·U) + b` is `(x·W + b) + h·U`: addition of extended reals is commutative and
    associative, infinities included;
  * `h₁ + z·(h − h₁) = (1 − z)·h₁ + z·h` whenever `h₁` is a real and `z` a nonnegative real, for EVERY extended
    real `h` — the logistic function and the hyperbolic tangent take real values (in [0, 1] and [−1, 1]) at every
    extended real, so no hypothesis on the arguments is used.
  This module imports no program.
-/
import proofs.«100349_j64441689309677_2_alg».proof.Proof.GruSpec
import proofs.«100349_j64441689309677_2_alg».proof.Proof.LibCellFacts

noncomputable section

namespace Cert.Gru

open Idealize.ShloMosaic Idealize.ShloMosaic.ValueIdx

/-- The fused gate matrix and the bias row, as the kernel is handed them. -/
abbrev Fused := (⟨2, ![2048, 2048]⟩ : Shape).Idx → EReal
abbrev BiasRow := (⟨2, ![1, 3072]⟩ : Shape).Idx → EReal

/-- Position `k` of the first half, and of the second half, of an axis of extent 2048. -/
def lo (k : Fin 1024) : Fin 2048 := ⟨k.val, by have := k.isLt; omega⟩
def hi (k : Fin 1024) : Fin 2048 := ⟨1024 + k.val, by have := k.isLt; omega⟩
/-- Position `n` of third `s` of the bias row. -/
def seg (s : Fin 3) (n : Fin 1024) : Fin 3072 := ⟨1024 * s.val + n.val, by have := s.isLt; have := n.isLt; omega⟩

/-- A gate as the kernel computes it: the two halves of the fused product, then the bias. -/
def kgate {R : Nat} (x h : (⟨2, ![R, 1024]⟩ : Shape).Idx → EReal) (w2 : Fused) (b : BiasRow)
    (col : Fin 2048) (pos : Fin 3072) (r : Fin R) : EReal :=
  Ideal.logistic ((∑ k : Fin 1024, x (ix2 r k) * w2 (ix2 (lo k) col) + ∑ k : Fin 1024, h (ix2 r k) * w2 (ix2 (hi k) col))
    + b (ix2 0 pos))

/-- The candidate as the kernel computes it. -/
def kcand {R : Nat} (x h : (⟨2, ![R, 1024]⟩ : Shape).Idx → EReal) (w2 : Fused) (w3 w4 : Wgt) (b : BiasRow)
    (r : Fin R) (n : Fin 1024) : EReal :=
  Ideal.tanh ((∑ k : Fin 1024, x (ix2 r k) * w3 (ix2 k n) + b (ix2 0 (seg 2 n)))
    + kgate x h w2 b (lo n) (seg 0 n) r * ∑ k : Fin 1024, h (ix2 r k) * w4 (ix2 k n))

/-- The kernel's new state at row `r` (of `R` rows: a block's 512 or the array's 16384), unit `n`. -/
def kcell {R : Nat} (x h : (⟨2, ![R, 1024]⟩ : Shape).Idx → EReal) (w2 : Fused) (w3 w4 : Wgt) (b : BiasRow)
    (r : Fin R) (n : Fin 1024) : EReal :=
  kcand x h w2 w3 w4 b r n + kgate x h w2 b (hi n) (seg 1 n) r * (h (ix2 r n) - kcand x h w2 w3 w4 b r n)

/-- The kernel's value at a row depends on the two row-indexed arrays through that row only. -/
theorem kcell_congr {R R' : Nat} (x h : (⟨2, ![R, 1024]⟩ : Shape).Idx → EReal) (x' h' : (⟨2, ![R', 1024]⟩ : Shape).Idx → EReal)
    (w2 : Fused) (w3 w4 : Wgt) (b : BiasRow) (r : Fin R) (r' : Fin R')
    (hx : ∀ k, x (ix2 r k) = x' (ix2 r' k)) (hh : ∀ k, h (ix2 r k) = h' (ix2 r' k)) (n : Fin 1024) :
    kcell x h w2 w3 w4 b r n = kcell x' h' w2 w3 w4 b r' n := by
  unfold kcell kcand kgate
  simp only [hx, hh]

/-- THE BRIDGE: over a fused matrix whose quarters are the four gate matrices, a bias row whose thirds are the
    three biases and the two candidate matrices, the kernel's arrangement is the specification's cell. -/
theorem kcell_eq_cell (x h : Act) (wir : Wgt) (bir : Bias) (wiz : Wgt) (biz : Bias) (wih : Wgt) (bih : Bias)
    (whr whz whh : Wgt) (w2 : Fused) (w3 w4 : Wgt) (b : BiasRow)
    (qll : ∀ k n, w2 (ix2 (lo k) (lo n)) = wir (ix2 k n)) (qhl : ∀ k n, w2 (ix2 (hi k) (lo n)) = whr (ix2 k n))
    (qlh : ∀ k n, w2 (ix2 (lo k) (hi n)) = wiz (ix2 k n)) (qhh : ∀ k n, w2 (ix2 (hi k) (hi n)) = whz (ix2 k n))
    (e3 : w3 = wih) (e4 : w4 = whh)
    (b0 : ∀ n, b (ix2 0 (seg 0 n)) = bir (ix1 n)) (b1 : ∀ n, b (ix2 0 (seg 1 n)) = biz (ix1 n))
    (b2 : ∀ n, b (ix2 0 (seg 2 n)) = bih (ix1 n)) (p : Fin 16384) (n : Fin 1024) :
    kcell x h w2 w3 w4 b p n = cell x h wir bir wiz biz wih bih whr whz whh p n := by
  subst e3 e4
  have hr : kgate x h w2 b (lo n) (seg 0 n) p = gate x h wir bir whr p n := by
    unfold kgate gate dot
    simp only [qll, qhl, b0]
    rw [add_right_comm]
  have hzg : kgate x h w2 b (hi n) (seg 1 n) p = gate x h wiz biz whz p n := by
    unfold kgate gate dot
    simp only [qlh, qhh, b1]
    rw [add_right_comm]
  have hc : kcand x h w2 w3 w4 b p n = cand x h wir bir whr w3 bih w4 p n := by
    unfold kcand cand
    rw [hr, b2]
    rfl
  unfold kcell cell
  rw [hzg, hc]
  obtain ⟨z, hz0, hz⟩ := Cert.LibCellFacts.logistic_real ((dot x wiz p n + biz (ix1 n)) + dot h whz p n)
  obtain ⟨t, ht⟩ := Cert.LibCellFacts.tanh_real ((dot x w3 p n + bih (ix1 n)) + gate x h wir bir whr p n * dot h w4 p n)
  have hg : gate x h wiz biz whz p n = (z : EReal) := hz
  have hcd : cand x h wir bir whr w3 bih w4 p n = (t : EReal) := ht
  rw [hg, hcd]
  exact Cert.LibCellFacts.mix_eq t z hz0 _

end Cert.Gru

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.KernelPayload.lean ====
/-
  The kernel body's arithmetic, read at row `r` and unit `n` of a 512-row block, is `Cert.Gru.kcell` of the six
  loaded blocks: the fused product `[x | h] · W₂` splits into its two halves of 1024 terms, a slice of the first
  or second 1024 columns of the 512×2048 gate pre-activations reads column `n` or `1024 + n`, the three thirds of
  the bias row are broadcast down the rows, and rounding to the narrower format is the identity on the extended
  reals.
-/
import proofs.«100349_j64441689309677_2_alg».proof.Proof.Gen.KernelIdeal.Skeleton
import proofs.«100349_j64441689309677_2_alg».proof.Proof.GruAlgebra
import proofs.«100349_j64441689309677_2_alg».proof.Proof.LibPlainDot
import Idealize.ShloMosaic.Lib.Pipeline.Value
import Idealize.ShloMosaic.Lib.ValueIdx
import Idealize.ShloMosaic.PureOps.Ideal.Laws

noncomputable section

namespace Cert.Gru.Ker

open Cert.KernelIdeal Cert.KernelIdeal.Gen Cert.Gru
open Idealize.ShloMosaic Idealize.ShloMosaic.ValueIdx

/-! ## Pointwise operations at an index -/

theorem tanh_at {s : Shape} {φ : FTy} (a : FVec Ideal s φ) (i : s.Idx) : tanh a i = Ideal.tanh (a i) := rfl
theorem logistic_at {s : Shape} {φ : FTy} (a : FVec Ideal s φ) (i : s.Idx) : logistic a i = Ideal.logistic (a i) := rfl

/-! ## Slices of the gate pre-activations -/

variable {α : Type}

/-- The first 1024 columns. -/
theorem slice_lo (v : S512x2048.Idx → α) (hs : S512x2048.Slices ![0, 0] S512x1024) (r : Fin 512) (n : Fin 1024) :
    extractStridedSlice S512x1024 ![0, 0] v hs (ix2 r n) = v (ix2 r (lo n)) :=
  extractStridedSlice_apply _ v hs _ (ix2 r (lo n)) (fun a => by
    match a with
    | ⟨0, _⟩ => show r.val = 0 + r.val; omega
    | ⟨1, _⟩ => show n.val = 0 + n.val; omega)

/-- The second 1024 columns. -/
theorem slice_hi (v : S512x2048.Idx → α) (hs : S512x2048.Slices ![0, 1024] S512x1024) (r : Fin 512) (n : Fin 1024) :
    extractStridedSlice S512x1024 ![0, 1024] v hs (ix2 r n) = v (ix2 r (hi n)) :=
  extractStridedSlice_apply _ v hs _ (ix2 r (hi n)) (fun a => by
    match a with
    | ⟨0, _⟩ => show r.val = 0 + r.val; omega
    | ⟨1, _⟩ => show 1024 + n.val = 1024 + n.val; rfl)

/-! ## The bias row's thirds, broadcast down the rows -/

/-- The first two thirds, as the 2048 columns of the gates' bias. -/
theorem bias_gates (b : S1x3072.Idx → α) (hs : S1x3072.Slices ![0, 0] S1x2048) (hb : S1x2048.Broadcasts S512x2048)
    (r : Fin 512) (c : Fin 2048) :
    broadcastTo S512x2048 (extractStridedSlice S1x2048 ![0, 0] b hs) hb (ix2 r c)
      = b (ix2 0 ⟨c.val, by have := c.isLt; omega⟩) := by
  rw [broadcastTo_apply _ hb (ix2 r c) (ix2 (0 : Fin 1) c) (fun a => by
    match a with
    | ⟨0, _⟩ => rfl
    | ⟨1, _⟩ => rfl)]
  exact extractStridedSlice_apply _ b hs _ (ix2 0 ⟨c.val, by have := c.isLt; omega⟩) (fun a => by
    match a with
    | ⟨0, _⟩ => rfl
    | ⟨1, _⟩ => show c.val = 0 + c.val; omega)

/-- The last third, the candidate's bias. -/
theorem bias_cand (b : S1x3072.Idx → α) (hs : S1x3072.Slices ![0, 2048] S1x1024) (hb : S1x1024.Broadcasts S512x1024)
    (r : Fin 512) (n : Fin 1024) :
    broadcastTo S512x1024 (extractStridedSlice S1x1024 ![0, 2048] b hs) hb (ix2 r n) = b (ix2 0 (seg 2 n)) := by
  rw [broadcastTo_apply _ hb (ix2 r n) (ix2 (0 : Fin 1) n) (fun a => by
    match a with
    | ⟨0, _⟩ => rfl
    | ⟨1, _⟩ => rfl)]
  exact extractStridedSlice_apply _ b hs _ (ix2 0 (seg 2 n)) (fun a => by
    match a with
    | ⟨0, _⟩ => rfl
    | ⟨1, _⟩ => show 1024 * 2 + n.val = 2048 + n.val; omega)

/-! ## The products -/

/-- The fused product at row `r`, column `c`: the input half then the state half. -/
theorem fused_dot (x0 x1 : FVec Ideal S512x1024 .bf16) (w : FVec Ideal S2048x2048 .bf16)
    (hc : Shape.Concatenates [S512x1024, S512x1024] S512x2048 1) (r : Fin 512) (c : Fin 2048) :
    matmul dot_S512x2048_S2048x2048_S512x2048_1_0_0_1_n_n none
        (concatenate S512x2048 1 [⟨S512x1024, x0⟩, ⟨S512x1024, x1⟩] hc) w (constant S512x2048 .f32 0x00000000#32) (ix2 r c)
      = ∑ k : Fin 1024, x0 (ix2 r k) * w (ix2 (lo k) c) + ∑ k : Fin 1024, x1 (ix2 r k) * w (ix2 (hi k) c) := by
  refine (Cert.LibPlainDot.matmul_zero_apply 512 2048 2048 none _ w (ix2 r c)).trans ?_
  refine (Fin.sum_univ_add (a := 1024) (b := 1024) fun k : Fin (1024 + 1024) =>
    concatenate S512x2048 1 [⟨S512x1024, x0⟩, ⟨S512x1024, x1⟩] hc (ix2 r k) * w (ix2 k c)).trans ?_
  refine congrArg₂ (· + ·) (Finset.sum_congr rfl fun k _ => ?_) (Finset.sum_congr rfl fun k _ => ?_)
  · refine congrArg₂ (· * ·) ?_ rfl
    exact concatenate_pair_apply_left 1 x0 x1 hc _ rfl (ix2 r k) (fun b => by
      match b with
      | ⟨0, _⟩ => rfl
      | ⟨1, _⟩ => rfl)
  · refine congrArg₂ (· * ·) ?_ rfl
    exact concatenate_pair_apply_right 1 x0 x1 hc _ rfl rfl (ix2 r k) (fun b hb => by
      match b with
      | ⟨0, _⟩ => rfl
      | ⟨1, _⟩ => exact absurd rfl hb) (by show k.val + 1024 = 1024 + k.val; omega)

/-- A plain product of a 512×1024 block by a square matrix. -/
theorem plain_dot (l : FVec Ideal S512x1024 .bf16) (w : FVec Ideal S1024x1024 .bf16) (r : Fin 512) (n : Fin 1024) :
    matmul dot_S512x1024_S1024x1024_S512x1024_1_0_0_1_n_n none l w (constant S512x1024 .f32 0x00000000#32) (ix2 r n)
      = ∑ k : Fin 1024, l (ix2 r k) * w (ix2 k n) :=
  Cert.LibPlainDot.matmul_zero_apply 512 1024 1024 none l w (ix2 r n)

/-! ## The body's arithmetic at an index -/

/-- The reset gate's bias sits in the first third of the row, the update gate's in the second. -/
theorem bias_reset (b : S1x3072.Idx → α) (hs : S1x3072.Slices ![0, 0] S1x2048) (hb : S1x2048.Broadcasts S512x2048)
    (r : Fin 512) (n : Fin 1024) :
    broadcastTo S512x2048 (extractStridedSlice S1x2048 ![0, 0] b hs) hb (ix2 r (lo n)) = b (ix2 0 (seg 0 n)) :=
  (bias_gates b hs hb r (lo n)).trans
    (congrArg (fun q => b (ix2 0 q)) (Fin.ext (by show n.val = 1024 * 0 + n.val; omega)))

theorem bias_update (b : S1x3072.Idx → α) (hs : S1x3072.Slices ![0, 0] S1x2048) (hb : S1x2048.Broadcasts S512x2048)
    (r : Fin 512) (n : Fin 1024) :
    broadcastTo S512x2048 (extractStridedSlice S1x2048 ![0, 0] b hs) hb (ix2 r (hi n)) = b (ix2 0 (seg 1 n)) :=
  (bias_gates b hs hb r (hi n)).trans
    (congrArg (fun q => b (ix2 0 q)) (Fin.ext (by show 1024 + n.val = 1024 * 1 + n.val; omega)))

/-- What the body stores, at row `r` and unit `n` of the block, from the blocks it loaded (the state's block is
    loaded twice and enters both the products and the final mixture). -/
theorem pay_apply (x0 x1 : Vec Ideal S512x1024 .f32) (w2 : Vec Ideal S2048x2048 .bf16) (b : Vec Ideal S1x3072 .f32)
    (w4 w3 : Vec Ideal S1024x1024 .bf16) (r : Fin 512) (n : Fin 1024) :
    k0_pay1 (F := Ideal) x0 x1 w2 b w4 w3 x1 (ix2 r n) = kcell x0 x1 w2 w3 w4 b r n := by
  unfold k0_pay1 kcell kcand kgate
  simp only [addf_apply, mulf_apply, subf_apply, tanh_at, logistic_at, slice_lo, slice_hi, shapeCast_self,
    fused_dot, plain_dot, bias_cand, bias_reset, bias_update, truncf_apply]

end Cert.Gru.Ker

end
-- ==== Proof.KernelValue.lean ====
/-
  From the blocks the grid points write back to the whole result array.

  Point `t` of the 32 stages rows `512·t … 512·t + 511` of the input batch and of the state and the whole of the
  three weight matrices and the bias row, and writes back rows `512·t … 512·t + 511` of the result. What it writes
  is therefore block `t` of ONE function of the arrays as the region finds them (`outArr`: the kernel's cell at
  every row and unit), and the 32 blocks cover the 16384 rows (row `p` lies in block `p / 512`), so the result
  array ends holding that function.
-/
import proofs.«100349_j64441689309677_2_alg».proof.Proof.KernelIdealFrame
import proofs.«100349_j64441689309677_2_alg».proof.Proof.KernelPayload
import Idealize.ShloMosaic.Lib.Pipeline.Value

noncomputable section

namespace Cert.Gru.KerRun

open Cert.KernelIdeal Cert.KernelIdeal.Gen Cert.KernelIdeal.Fr Cert.Gru Cert.Gru.Ker
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the two row-blocked inputs and the output move one block of rows per
    point; the three matrices and the bias row stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of block `t` is row `512·t + r` of the array. -/
def rowOf (t : Fin cfg0.N) (r : Fin 512) : Fin 16384 :=
  ⟨512 * t.val + r.val, by have := t.isLt; have hN : cfg0.N = 32 := N_0; have := r.isLt; omega⟩

/-- The whole result array as one function of the arrays the region finds: the kernel's cell at every row and unit. -/
def outArr (c : Dev nD) : S16384x1024.Idx → EReal := fun i =>
  kcell (V m c main_arg0 : S16384x1024.Idx → EReal) (V m c main_arg1 : S16384x1024.Idx → EReal)
    (V m c main_v3 : S2048x2048.Idx → EReal) (V m c main_v4 : S1024x1024.Idx → EReal)
    (V m c main_v5 : S1024x1024.Idx → EReal) (V m c main_v7 : S1x3072.Idx → EReal) (i 0) (i 1)

/-! ## The input blocks read off their arrays -/

theorem xblk_apply (c : Dev nD) (t : Fin cfg0.N) (r : Fin 512) (k : Fin 1024) :
    (iblk m c 0 t : S512x1024.Idx → EReal) (ix2 r k)
      = (V m c main_arg0 : S16384x1024.Idx → EReal) (ix2 (rowOf t r) k) := by
  obtain ⟨e0, e1, -⟩ := idx_facts t
  show V m c main_arg0 (((cfg0.win 0).blk t).view.emb (ix2 r k)) = V m c main_arg0 _
  refine congrArg _ (funext fun a => Fin.ext ?_)
  match a with
  | ⟨0, _⟩ => show win0_0.index t (0 : Fin 2) * 512 + 1 * r.val = 512 * t.val + r.val; rw [e0]; omega
  | ⟨1, _⟩ => show win0_0.index t (1 : Fin 2) * 1024 + 1 * k.val = k.val; rw [e1]; omega

theorem hblk_apply (c : Dev nD) (t : Fin cfg0.N) (r : Fin 512) (k : Fin 1024) :
    (iblk m c 1 t : S512x1024.Idx → EReal) (ix2 r k)
      = (V m c main_arg1 : S16384x1024.Idx → EReal) (ix2 (rowOf t r) k) := by
  obtain ⟨-, -, e0, e1, -⟩ := idx_facts t
  show V m c main_arg1 (((cfg0.win 1).blk t).view.emb (ix2 r k)) = V m c main_arg1 _
  refine congrArg _ (funext fun a => Fin.ext ?_)
  match a with
  | ⟨0, _⟩ => show win0_1.index t (0 : Fin 2) * 512 + 1 * r.val = 512 * t.val + r.val; rw [e0]; omega
  | ⟨1, _⟩ => show win0_1.index t (1 : Fin 2) * 1024 + 1 * k.val = k.val; rw [e1]; omega

theorem gates_blk (c : Dev nD) (t : Fin cfg0.N) :
    (iblk m c 2 t : S2048x2048.Idx → EReal) = (V m c main_v3 : S2048x2048.Idx → EReal) := by
  obtain ⟨-, -, -, -, e0, e1, -⟩ := idx_facts t
  funext y
  show V m c main_v3 (((cfg0.win 2).blk t).view.emb y) = V m c main_v3 y
  refine congrArg _ (funext fun a => Fin.ext ?_)
  match a with
  | ⟨0, _⟩ => show win0_2.index t (0 : Fin 2) * 2048 + 1 * (y 0).val = (y 0).val; rw [e0]; omega
  | ⟨1, _⟩ => show win0_2.index t (1 : Fin 2) * 2048 + 1 * (y 1).val = (y 1).val; rw [e1]; omega

theorem wih_blk (c : Dev nD) (t : Fin cfg0.N) :
    (iblk m c 3 t : S1024x1024.Idx → EReal) = (V m c main_v4 : S1024x1024.Idx → EReal) := by
  obtain ⟨-, -, -, -, -, -, e0, e1, -⟩ := idx_facts t
  funext y
  show V m c main_v4 (((cfg0.win 3).blk t).view.emb y) = V m c main_v4 y
  refine congrArg _ (funext fun a => Fin.ext ?_)
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

theorem whh_blk (c : Dev nD) (t : Fin cfg0.N) :
    (iblk m c 4 t : S1024x1024.Idx → EReal) = (V m c main_v5 : S1024x1024.Idx → EReal) := by
  obtain ⟨-, -, -, -, -, -, -, -, e0, e1, -⟩ := idx_facts t
  funext y
  show V m c main_v5 (((cfg0.win 4).blk t).view.emb y) = V m c main_v5 y
  refine congrArg _ (funext fun a => Fin.ext ?_)
  match a with
  | ⟨0, _⟩ => show win0_4.index t (0 : Fin 2) * 1024 + 1 * (y 0).val = (y 0).val; rw [e0]; omega
  | ⟨1, _⟩ => show win0_4.index t (1 : Fin 2) * 1024 + 1 * (y 1).val = (y 1).val; rw [e1]; omega

theorem bias_blk (c : Dev nD) (t : Fin cfg0.N) :
    (iblk m c 5 t : S1x3072.Idx → EReal) = (V m c main_v7 : S1x3072.Idx → EReal) := by
  obtain ⟨-, -, -, -, -, -, -, -, -, -, e0, e1, -⟩ := idx_facts t
  funext y
  show V m c main_v7 (((cfg0.win 5).blk t).view.emb y) = V m c main_v7 y
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 3072 + 1 * (y 1).val = (y 1).val; rw [e1]; omega

/-! ## What a point writes back -/

/-- Point `t` writes back block `t` of `outArr`. -/
theorem flushed_eq (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after6]
  unfold newRows
  rw [View.canon_unit_zero hz]
  simp only [View.ld_unit_zero (S := S512x1024) hz, View.ld_unit_zero (S := S2048x2048) hz,
    View.ld_unit_zero (S := S1024x1024) hz, View.ld_unit_zero (S := S1x3072) hz]
  funext j
  obtain ⟨r, n, rfl⟩ : ∃ (r : Fin 512) (n : Fin 1024), j = ix2 r n := ⟨j 0, j 1, eq_ix2 j⟩
  show k0_pay1 (F := Ideal) (iblk m c 0 t) (iblk m c 1 t) (iblk m c 2 t) (iblk m c 5 t) (iblk m c 4 t) (iblk m c 3 t)
      (iblk m c 1 t) (ix2 r n) = outArr m c (((cfg0.win 6).blk t).view.emb (ix2 r n))
  refine (pay_apply (iblk m c 0 t) (iblk m c 1 t) (iblk m c 2 t) (iblk m c 5 t) (iblk m c 4 t) (iblk m c 3 t) r n).trans ?_
  rw [gates_blk m c t, wih_blk m c t, whh_blk m c t, bias_blk m c t]
  refine (kcell_congr _ _ (V m c main_arg0 : S16384x1024.Idx → EReal) (V m c main_arg1 : S16384x1024.Idx → EReal)
    _ _ _ _ r (rowOf t r) (fun k => xblk_apply m c t r k) (fun k => hblk_apply m c t r k) n).trans ?_
  obtain ⟨-, -, -, -, -, -, -, -, -, -, -, -, e0, e1⟩ := idx_facts t
  unfold outArr
  refine congrArg₂ (kcell _ _ _ _ _ _) (Fin.ext ?_) (Fin.ext ?_)
  · show 512 * t.val + r.val = win0_6.index t (0 : Fin 2) * 512 + 1 * r.val; rw [e0]; omega
  · show n.val = win0_6.index t (1 : Fin 2) * 1024 + 1 * n.val; rw [e1]; omega

/-! ## The cover, and the array -/

theorem mem_blk (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v8).slice (win0_6.rect t)).set ↔ _
  rw [View.set_slice_whole, Rect.mem_set_unit]
  exact Iff.rfl

/-- Every index of the result array lies in the block of the point its row falls in. -/
theorem cover (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 32 := N_0
  refine ⟨⟨(i 0).val / 512, by rw [hN]; omega⟩, flush0_6 _, ?_⟩
  rw [mem_blk]
  obtain ⟨-, -, -, -, -, -, -, -, -, -, -, -, e0, e1⟩ := idx_facts ⟨(i 0).val / 512, by rw [hN]; omega⟩
  intro a
  match a with
  | ⟨0, _⟩ =>
    show win0_6.index _ (0 : Fin 2) * 512 ≤ (i 0).val ∧ (i 0).val < win0_6.index _ (0 : Fin 2) * 512 + 512
    rw [e0]; show (i 0).val / 512 * 512 ≤ (i 0).val ∧ (i 0).val < (i 0).val / 512 * 512 + 512; omega
  | ⟨1, _⟩ =>
    show win0_6.index _ (1 : Fin 2) * 1024 ≤ (i 1).val ∧ (i 1).val < win0_6.index _ (1 : Fin 2) * 1024 + 1024
    rw [e1]; omega

/-- The result array after the run. -/
theorem final (c : Dev nD) : (dats m 0 c).arrAt 6 cfg0.N = outArr m c :=
  (dats m 0 c).arrAt_eq_of_cover 6 (outArr m c) (fun t _ => flushed_eq m c t) (cover)

/-- The run, read: the result array at `outArr`, the eleven arguments unchanged. -/
theorem run : θ_run defs (onTc (τ := τ) (main (F := Ideal))) ⟨m, fun _ => 0, ρ⟩ fun r => ∀ c : Dev nD,
      r.2.mem ((c.tc : Thread nD τ).loc main_v8) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 6).trans (final m c), kept_of m (dats m) (A_eq m) r h c⟩)
    (run_main m ρ)

end Cert.Gru.KerRun

end
-- ==== Proof.LibNary3.lean ====
/-
  A host operation on a literal family of THREE operands (a concatenation of three arrays), read at its result.

  The operation's result buffer holds its function of the family of the operands' contents. Stated with each
  operand's contents read AT ITS OWN REFERENCE — `Fin.cons (F a₀) (Fin.cons (F a₁) (Fin.cons (F a₂) …))` in place of
  `fun k => F (![a₀, a₁, a₂] k)` — so that the contents of the three operands can go on being rewritten one reference
  at a time (under the binder `![a₀, a₁, a₂] k` is no literal reference). The function applied to that family is then
  its body with `u 0`, `u 1`, `u 2` read as the three contents, by `rfl`.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type}

/-- The result of a three-operand operation at its result reference. -/
theorem nary3_result (x a b y : Ref sig .tc)
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.KernelHost.lean ====
/-
  What the region finds in the arrays the host prepared, entry by entry, in terms of the argument arrays.

  * The input batch and the state are the arguments themselves.
  * The two candidate matrices are the arguments rounded to the narrower format: the identity on the extended reals.
  * The fused gate matrix is `[[W_ir ; W_hr] | [W_iz ; W_hz]]` rounded: its top-left quarter is the input-to-reset
    matrix, bottom-left the state-to-reset, top-right the input-to-update, bottom-right the state-to-update.
  * The bias row is the three biases end to end, recast from 3072 entries to one row of 3072.
-/
import proofs.«100349_j64441689309677_2_alg».proof.Proof.KernelIdealFrame
import proofs.«100349_j64441689309677_2_alg».proof.Proof.GruAlgebra
import proofs.«100349_j64441689309677_2_alg».proof.Proof.LibNary3
import Idealize.ShloMosaic.Lib.Pipeline.Value
import Idealize.ShloMosaic.Lib.StableHlo.Run
import Idealize.ShloMosaic.Lib.ValueIdx
import Idealize.ShloMosaic.PureOps.Ideal.Laws

noncomputable section

namespace Cert.Gru.KerHost

open Cert.KernelIdeal Cert.KernelIdeal.Gen Cert.KernelIdeal.Fr Cert.Gru
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## Two matrices stacked, and two stacks side by side, read at an index -/

variable {α : Type}

/-- The top half of a stack of two square matrices. -/
theorem stack_top (a b : S1024x1024.Idx → α) (hc : Shape.Concatenates [S1024x1024, S1024x1024] S2048x1024 0)
    (k n : Fin 1024) :
    concatenate S2048x1024 0 [⟨S1024x1024, a⟩, ⟨S1024x1024, b⟩] hc (ix2 (lo k) n) = a (ix2 k n) :=
  concatenate_pair_apply_left 0 a b hc _ rfl (ix2 k n) (fun d => by
    match d with
    | ⟨0, _⟩ => rfl
    | ⟨1, _⟩ => rfl)

/-- The bottom half. -/
theorem stack_bottom (a b : S1024x1024.Idx → α) (hc : Shape.Concatenates [S1024x1024, S1024x1024] S2048x1024 0)
    (k n : Fin 1024) :
    concatenate S2048x1024 0 [⟨S1024x1024, a⟩, ⟨S1024x1024, b⟩] hc (ix2 (hi k) n) = b (ix2 k n) :=
  concatenate_pair_apply_right 0 a b hc _ rfl rfl (ix2 k n) (fun d hd => by
    match d with
    | ⟨0, _⟩ => exact absurd rfl hd
    | ⟨1, _⟩ => rfl) (by show k.val + 1024 = 1024 + k.val; omega)

/-- The left half of two stacks side by side. -/
theorem side_left (a b : S2048x1024.Idx → α) (hc : Shape.Concatenates [S2048x1024, S2048x1024] S2048x2048 1)
    (k : Fin 2048) (n : Fin 1024) :
    concatenate S2048x2048 1 [⟨S2048x1024, a⟩, ⟨S2048x1024, b⟩] hc (ix2 k (lo n)) = a (ix2 k n) :=
  concatenate_pair_apply_left 1 a b hc _ rfl (ix2 k n) (fun d => by
    match d with
    | ⟨0, _⟩ => rfl
    | ⟨1, _⟩ => rfl)

/-- The right half. -/
theorem side_right (a b : S2048x1024.Idx → α) (hc : Shape.Concatenates [S2048x1024, S2048x1024] S2048x2048 1)
    (k : Fin 2048) (n : Fin 1024) :
    concatenate S2048x2048 1 [⟨S2048x1024, a⟩, ⟨S2048x1024, b⟩] hc (ix2 k (hi n)) = b (ix2 k n) :=
  concatenate_pair_apply_right 1 a b hc _ rfl rfl (ix2 k n) (fun d hd => by
    match d with
    | ⟨0, _⟩ => rfl
    | ⟨1, _⟩ => exact absurd rfl hd) (by show n.val + 1024 = 1024 + n.val; omega)

/-! ## The region-entry arrays -/

/-- The input batch and the state are found as launched. -/
theorem x_eq (c : Dev nD) : V m c main_arg0 = m ((c : Thread nD τ).loc main_arg0) := V_kept m c main_arg0 (by decide)
theorem h_eq (c : Dev nD) : V m c main_arg1 = m ((c : Thread nD τ).loc main_arg1) := V_kept m c main_arg1 (by decide)

/-- The input-to-candidate matrix the kernel is handed is the argument (rounded: the identity here). -/
theorem wih_eq (c : Dev nD) :
    (V m c main_v4 : S1024x1024.Idx → EReal) = (m ((c : Thread nD τ).loc main_arg6) : S1024x1024.Idx → EReal) := by
  funext i
  dsimp only [Fr.V, hostOps0]; after_results; rfl

/-- The state-to-candidate matrix the kernel is handed is the argument. -/
theorem whh_eq (c : Dev nD) :
    (V m c main_v5 : S1024x1024.Idx → EReal) = (m ((c : Thread nD τ).loc main_arg10) : S1024x1024.Idx → EReal) := by
  funext i
  dsimp only [Fr.V, hostOps0]; after_results; rfl

/-- The fused gate matrix as the host builds it: two stacks side by side. -/
theorem gates_eq (c : Dev nD) :
    (V m c main_v3 : S2048x2048.Idx → EReal)
      = concatenate S2048x2048 1
          [⟨S2048x1024, concatenate S2048x1024 0 [⟨S1024x1024, (m ((c : Thread nD τ).loc main_arg2) : S1024x1024.Idx → EReal)⟩,
              ⟨S1024x1024, (m ((c : Thread nD τ).loc main_arg8) : S1024x1024.Idx → EReal)⟩]
              concatenates_S1024x1024_S1024x1024_S2048x1024_d0⟩,
           ⟨S2048x1024, concatenate S2048x1024 0 [⟨S1024x1024, (m ((c : Thread nD τ).loc main_arg4) : S1024x1024.Idx → EReal)⟩,
              ⟨S1024x1024, (m ((c : Thread nD τ).loc main_arg9) : S1024x1024.Idx → EReal)⟩]
              concatenates_S1024x1024_S1024x1024_S2048x1024_d0⟩]
          concatenates_S2048x1024_S2048x1024_S2048x2048_d1 := by
  funext i
  dsimp only [Fr.V, hostOps0]; after_results; rfl

/-- The bias row as the host builds it: the three biases end to end, recast as one row. -/
theorem bias_eq (c : Dev nD) :
    (V m c main_v7 : S1x3072.Idx → EReal)
      = shapeCast S1x3072 (concatenate S3072 0 [⟨S1024, (m ((c : Thread nD τ).loc main_arg3) : S1024.Idx → EReal)⟩,
          ⟨S1024, (m ((c : Thread nD τ).loc main_arg5) : S1024.Idx → EReal)⟩,
          ⟨S1024, (m ((c : Thread nD τ).loc main_arg7) : S1024.Idx → EReal)⟩]
          concatenates_S1024_S1024_S1024_S3072_d0) shapeCasts_S3072_S1x3072 := by
  funext i
  dsimp only [Fr.V, hostOps0]
  simp only [after_cons, after_nil]
  rw [reshape_result, Cert.LibNary3.nary3_result]
  repeat (first
    | (rw [unary_result_ne]; rotate_left; decide)
    | (rw [binary_result_ne]; rotate_left; decide))
  rfl

/-! ## The entries the kernel's arrangement reads -/

/-- The four quarters of the fused gate matrix. -/
theorem gates_ll (c : Dev nD) (k n : Fin 1024) :
    (V m c main_v3 : S2048x2048.Idx → EReal) (ix2 (lo k) (lo n)) = (m ((c : Thread nD τ).loc main_arg2) : S1024x1024.Idx → EReal) (ix2 k n) := by
  rw [gates_eq]; exact (side_left _ _ _ (lo k) n).trans (stack_top _ _ _ k n)
theorem gates_hl (c : Dev nD) (k n : Fin 1024) :
    (V m c main_v3 : S2048x2048.Idx → EReal) (ix2 (hi k) (lo n)) = (m ((c : Thread nD τ).loc main_arg8) : S1024x1024.Idx → EReal) (ix2 k n) := by
  rw [gates_eq]; exact (side_left _ _ _ (hi k) n).trans (stack_bottom _ _ _ k n)
theorem gates_lh (c : Dev nD) (k n : Fin 1024) :
    (V m c main_v3 : S2048x2048.Idx → EReal) (ix2 (lo k) (hi n)) = (m ((c : Thread nD τ).loc main_arg4) : S1024x1024.Idx → EReal) (ix2 k n) := by
  rw [gates_eq]; exact (side_right _ _ _ (lo k) n).trans (stack_top _ _ _ k n)
theorem gates_hh (c : Dev nD) (k n : Fin 1024) :
    (V m c main_v3 : S2048x2048.Idx → EReal) (ix2 (hi k) (hi n)) = (m ((c : Thread nD τ).loc main_arg9) : S1024x1024.Idx → EReal) (ix2 k n) := by
  rw [gates_eq]; exact (side_right _ _ _ (hi k) n).trans (stack_bottom _ _ _ k n)

/-- Entry `1024·s + n` of the one row is entry `1024·s + n` of the 3072 laid end to end. -/
theorem row_cast (v : S3072.Idx → α) (hs : S3072.ShapeCasts S1x3072) (q : Fin 3072) :
    shapeCast S1x3072 v hs (ix2 0 q) = v (ix1 q) :=
  shapeCast_apply v hs (ix2 0 q) (ix1 q) (by
    rw [Shape.rowMajor_val_one, Shape.rowMajor_val_two]
    show q.val = 0 * 3072 + q.val
    omega)

/-- The three thirds of three vectors laid end to end. -/
theorem third0 (a0 a1 a2 : S1024.Idx → α) (hc : Shape.Concatenates [S1024, S1024, S1024] S3072 0) (n : Fin 1024) :
    concatenate S3072 0 [⟨S1024, a0⟩, ⟨S1024, a1⟩, ⟨S1024, a2⟩] hc (ix1 (seg 0 n)) = a0 (ix1 n) :=
  concatenate_apply_piece 0 [⟨S1024, a0⟩, ⟨S1024, a1⟩, ⟨S1024, a2⟩] hc _ 0 (by show 0 < 3; omega) S1024 a0 rfl rfl 0 rfl (ix1 n)
    (fun b hb => absurd (Fin.ext (by have : b.val < 1 := b.isLt; show b.val = 0; omega)) hb)
    (by show 0 + n.val = 1024 * 0 + n.val; omega)
theorem third1 (a0 a1 a2 : S1024.Idx → α) (hc : Shape.Concatenates [S1024, S1024, S1024] S3072 0) (n : Fin 1024) :
    concatenate S3072 0 [⟨S1024, a0⟩, ⟨S1024, a1⟩, ⟨S1024, a2⟩] hc (ix1 (seg 1 n)) = a1 (ix1 n) :=
  concatenate_apply_piece 0 [⟨S1024, a0⟩, ⟨S1024, a1⟩, ⟨S1024, a2⟩] hc _ 1 (by show 1 < 3; omega) S1024 a1 rfl rfl 1024 rfl (ix1 n)
    (fun b hb => absurd (Fin.ext (by have : b.val < 1 := b.isLt; show b.val = 0; omega)) hb)
    (by show 1024 + n.val = 1024 * 1 + n.val; omega)
theorem third2 (a0 a1 a2 : S1024.Idx → α) (hc : Shape.Concatenates [S1024, S1024, S1024] S3072 0) (n : Fin 1024) :
    concatenate S3072 0 [⟨S1024, a0⟩, ⟨S1024, a1⟩, ⟨S1024, a2⟩] hc (ix1 (seg 2 n)) = a2 (ix1 n) :=
  concatenate_apply_piece 0 [⟨S1024, a0⟩, ⟨S1024, a1⟩, ⟨S1024, a2⟩] hc _ 2 (by show 2 < 3; omega) S1024 a2 rfl rfl 2048 rfl (ix1 n)
    (fun b hb => absurd (Fin.ext (by have : b.val < 1 := b.isLt; show b.val = 0; omega)) hb)
    (by show 2048 + n.val = 1024 * 2 + n.val; omega)

theorem bias0 (c : Dev nD) (n : Fin 1024) :
    (V m c main_v7 : S1x3072.Idx → EReal) (ix2 0 (seg 0 n)) = (m ((c : Thread nD τ).loc main_arg3) : S1024.Idx → EReal) (ix1 n) := by
  rw [bias_eq]; exact (row_cast _ _ (seg 0 n)).trans (third0 _ _ _ _ n)
theorem bias1 (c : Dev nD) (n : Fin 1024) :
    (V m c main_v7 : S1x3072.Idx → EReal) (ix2 0 (seg 1 n)) = (m ((c : Thread nD τ).loc main_arg5) : S1024.Idx → EReal) (ix1 n) := by
  rw [bias_eq]; exact (row_cast _ _ (seg 1 n)).trans (third1 _ _ _ _ n)
theorem bias2 (c : Dev nD) (n : Fin 1024) :
    (V m c main_v7 : S1x3072.Idx → EReal) (ix2 0 (seg 2 n)) = (m ((c : Thread nD τ).loc main_arg7) : S1024.Idx → EReal) (ix1 n) := by
  rw [bias_eq]; exact (row_cast _ _ (seg 2 n)).trans (third2 _ _ _ _ n)

end Cert.Gru.KerHost

end
-- ==== Proof.KernelIsG.lean ====
/-
  The kernel's result array is the cell function of the argument arrays.

  The array the run leaves is the kernel's arrangement of the cell over the arrays the region finds; the host has made
  those arrays out of the arguments (the fused gate matrix's four quarters, the bias row's three thirds, the two
  candidate matrices), so the arrangement's bridge to the specification applies at every row and unit.
-/
import proofs.«100349_j64441689309677_2_alg».proof.Proof.KernelValue
import proofs.«100349_j64441689309677_2_alg».proof.Proof.KernelHost

noncomputable section

namespace Cert.Gru.KerRun

open Cert.KernelIdeal Cert.KernelIdeal.Gen Cert.KernelIdeal.Fr Cert.Gru
open Idealize.ShloMosaic Idealize.ShloMosaic.TcCoe Idealize.SL.Sem Idealize.ShloMosaic.ValueIdx

variable (m : (ℓ : Loc nD τ sig) → Buf (Elt Ideal) ℓ)

theorem outArr_eq (c : Dev nD) :
    outArr m c = G (m ((c : Thread nD τ).loc main_arg0) : S16384x1024.Idx → EReal) (m ((c : Thread nD τ).loc main_arg1) : S16384x1024.Idx → EReal)
      (m ((c : Thread nD τ).loc main_arg2) : S1024x1024.Idx → EReal) (m ((c : Thread nD τ).loc main_arg3) : S1024.Idx → EReal)
      (m ((c : Thread nD τ).loc main_arg4) : S1024x1024.Idx → EReal) (m ((c : Thread nD τ).loc main_arg5) : S1024.Idx → EReal)
      (m ((c : Thread nD τ).loc main_arg6) : S1024x1024.Idx → EReal) (m ((c : Thread nD τ).loc main_arg7) : S1024.Idx → EReal)
      (m ((c : Thread nD τ).loc main_arg8) : S1024x1024.Idx → EReal) (m ((c : Thread nD τ).loc main_arg9) : S1024x1024.Idx → EReal)
      (m ((c : Thread nD τ).loc main_arg10) : S1024x1024.Idx → EReal) := by
  funext i
  unfold outArr G
  rw [KerHost.x_eq m c, KerHost.h_eq m c]
  exact kcell_eq_cell _ _ _ _ _ _ _ _ _ _ _ _ _ _ _
    (KerHost.gates_ll m c) (KerHost.gates_hl m c) (KerHost.gates_lh m c) (KerHost.gates_hh m c)
    (KerHost.wih_eq m c) (KerHost.whh_eq m c) (KerHost.bias0 m c) (KerHost.bias1 m c) (KerHost.bias2 m c) (i 0) (i 1)

end Cert.Gru.KerRun

end
-- ==== Proof.RefValue.lean ====
/-
  The reference program's result, read index by index at the exact instance, is the cell function `Cert.Gru.G`
  of its argument arrays.

  The program computes three pre-activations of the same form, a row-by-column product plus a bias row plus a
  second row-by-column product; two of them pass through `1 / (1 + e^(−y))`, which is the logistic function, and
  give the reset gate `r` and the update gate `z`; the third has its second product scaled by `r` and passes
  through the hyperbolic tangent to give the candidate `h₁`; the result is `(1 − z) · h₁ + z · h`.
  Each product, bias row and constant of the program is the same operation on other operands, so each is
  read at an index once and reused.
-/
import proofs.«100349_j64441689309677_2_alg».proof.Proof.Gen.ReferenceIdeal.Read
import proofs.«100349_j64441689309677_2_alg».proof.Proof.GruSpec
import Idealize.ShloMosaic.Lib.IdealHost

noncomputable section

namespace Cert.Gru.Ref

open Cert.ReferenceIdeal Cert.ReferenceIdeal.Read Idealize.ShloMosaic Idealize.ShloMosaic.ValueIdx

/-- The contraction reads row `p` of the left array: its left index at `(p, n)`, `k` is `(p, k)`. -/
theorem lidx_eq (p : Fin 16384) (n k : Fin 1024) : lidx_main_v0 (ix2 p n) k = ix2 p k :=
  funext fun a => Fin.ext (by match a with | ⟨0, _⟩ => rfl | ⟨1, _⟩ => rfl)

/-- The contraction reads column `n` of the right array: its right index at `(p, n)`, `k` is `(k, n)`. -/
theorem ridx_eq (p : Fin 16384) (n k : Fin 1024) : ridx_main_v0 (ix2 p n) k = ix2 k n :=
  funext fun a => Fin.ext (by match a with | ⟨0, _⟩ => rfl | ⟨1, _⟩ => rfl)

/-- A matrix product of the program at `(p, n)` is the row-by-column sum. -/
theorem dot_eq (a : Act) (w : Wgt) (p : Fin 16384) (n : Fin 1024) :
    val_main_v0 (F := Ideal) a w (ix2 p n) = dot a w p n := by
  rw [val_main_v0_apply]
  unfold dot
  simp only [lidx_eq, ridx_eq]

/-- A bias broadcast along the rows, read at `(p, n)`, is the bias at `n`. -/
theorem bias_eq (b : Bias) (p : Fin 16384) (n : Fin 1024) :
    val_main_v2 (F := Ideal) b (ix2 p n) = b (ix1 n) := by
  rw [val_main_v2_apply, val_main_v1_apply]
  exact congrArg b (funext fun a => Fin.ext (by match a with | ⟨0, _⟩ => rfl))

/-- The broadcast constant is the number one everywhere. -/
theorem one_eq (i : (⟨2, ![16384, 1024]⟩ : Shape).Idx) : val_main_v8 (F := Ideal) i = 1 := by
  rw [val_main_v8_apply, val_main_cst_apply]
  exact Ideal.ofBits_one_f32

/-- The reset-gate stage: one over one plus the exponential of minus the pre-activation
    `(x·W + b) + h·U` is the logistic function of it. -/
theorem reset_gate_eq (x h : Act) (w : Wgt) (b : Bias) (u : Wgt) (p : Fin 16384) (n : Fin 1024) :
    val_main_v11 (F := Ideal) x h w b u (ix2 p n) = gate x h w b u p n := by
  rw [val_main_v11_apply, val_main_v9_apply, val_main_v7_apply, val_main_v6_apply, val_main_v5_apply,
    val_main_v3_apply]
  rw [show val_main_v10 (F := Ideal) (ix2 p n) = 1 from one_eq _, one_eq, dot_eq, bias_eq,
    show val_main_v4 (F := Ideal) h u (ix2 p n) = dot h u p n from dot_eq h u p n]
  simp only [Ideal.hostDivf_def, Ideal.addf_def, Ideal.hostUnary_exp_def, Ideal.hostNegf_def, Ideal.negf_def]
  rfl

/-- The update-gate stage is the same sequence of operations on the update gate's weights and bias. -/
theorem update_gate_eq (x h : Act) (w : Wgt) (b : Bias) (u : Wgt) (p : Fin 16384) (n : Fin 1024) :
    val_main_v23 (F := Ideal) x h w b u (ix2 p n) = gate x h w b u p n :=
  reset_gate_eq x h w b u p n

/-- The candidate stage: the hyperbolic tangent of `(x·W_ih + b_ih) + r · (h·W_hh)`. -/
theorem cand_eq (x h : Act) (wir : Wgt) (bir : Bias) (wih : Wgt) (bih : Bias) (whr whh : Wgt)
    (p : Fin 16384) (n : Fin 1024) :
    val_main_v31 (F := Ideal) x h wir bir wih bih whr whh (ix2 p n) = cand x h wir bir whr wih bih whh p n := by
  rw [val_main_v31_apply, val_main_v30_apply, val_main_v29_apply, val_main_v27_apply, reset_gate_eq]
  rw [show val_main_v24 (F := Ideal) x wih (ix2 p n) = dot x wih p n from dot_eq x wih p n,
    show val_main_v26 (F := Ideal) bih (ix2 p n) = bih (ix1 n) from bias_eq bih p n,
    show val_main_v28 (F := Ideal) h whh (ix2 p n) = dot h whh p n from dot_eq h whh p n]
  simp only [Ideal.hostUnary_tanh_def, Ideal.addf_def, Ideal.mulf_def]
  rfl

/-- The program's result at every row `p` and unit `n` is the update gate's mixture
    `(1 − z) · h₁ + z · h` of the candidate and the old state: the cell function. -/
theorem result_eq (x0 x1 : Cert.Gru.Act) (x2 : Cert.Gru.Wgt) (x3 : Cert.Gru.Bias) (x4 : Cert.Gru.Wgt) (x5 : Cert.Gru.Bias) (x6 : Cert.Gru.Wgt) (x7 : Cert.Gru.Bias) (x8 x9 x10 : Cert.Gru.Wgt) :
    val_main_v36 (F := Ideal) x0 x1 x2 x3 x4 x5 x6 x7 x8 x9 x10 = Cert.Gru.G x0 x1 x2 x3 x4 x5 x6 x7 x8 x9 x10 := by
  funext i
  obtain ⟨p, n, rfl⟩ : ∃ (p : Fin 16384) (n : Fin 1024), i = ix2 p n := ⟨i 0, i 1, eq_ix2 i⟩
  rw [val_main_v36_apply, val_main_v34_apply, val_main_v35_apply, val_main_v33_apply, update_gate_eq, cand_eq,
    show val_main_v32 (F := Ideal) (ix2 p n) = 1 from one_eq _]
  simp only [Ideal.addf_def, Ideal.subf_def, Ideal.mulf_def]
  rfl

end Cert.Gru.Ref

end
-- ==== Proof.lean ====
/-
  A gated recurrent cell, one step: the kernel against its reference, on the extended reals.

  The kernel tiles the batch of 16384 rows into 32 blocks of 512 and keeps the weights resident: it multiplies the
  row `[x | h]` by one fused 2048×2048 gate matrix, adds the biases from one row holding all three, and mixes the
  candidate and the old state as `h₁ + z·(h − h₁)`. The reference computes the two gates and the candidate from six
  separate products and mixes as `(1 − z)·h₁ + z·h`. At the exact instance rounding is the identity and the two are
  one function of the eleven arguments (`Cert.Gru.G`): the fused product splits into its halves, sums of extended
  reals commute and associate, and the two mixtures agree because the logistic function and the hyperbolic tangent
  take real values everywhere — so the precondition is never opened.
  The three frames: both kernel programs by the pipeline library's frame theorem over a body that loads whole blocks
  and stores the output block once (`KernelFrame`, `KernelIdealFrame`); the reference by its run. The idealization
  rewrote nothing, so `preserves` has nothing to state.
-/
import proofs.«100349_j64441689309677_2_alg».proof.Defs
import proofs.«100349_j64441689309677_2_alg».proof.Proof.Gen.Kernel
import proofs.«100349_j64441689309677_2_alg».proof.Proof.Gen.KernelIdeal
import proofs.«100349_j64441689309677_2_alg».proof.Proof.Gen.ReferenceIdeal
import proofs.«100349_j64441689309677_2_alg».proof.Proof.Gen.Pre_finite_inputs
import proofs.«100349_j64441689309677_2_alg».proof.Proof.Gen.ReferenceIdeal.Run
import proofs.«100349_j64441689309677_2_alg».proof.Proof.Gen.ReferenceIdeal.Read
import proofs.«100349_j64441689309677_2_alg».proof.Proof.KernelFrame
import proofs.«100349_j64441689309677_2_alg».proof.Proof.KernelIdealFrame
import proofs.«100349_j64441689309677_2_alg».proof.Proof.KernelIsG
import proofs.«100349_j64441689309677_2_alg».proof.Proof.RefValue

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the cell function of the arguments they agree on. -/
theorem algebraic : Cert.algebraic_KernelIdeal_ReferenceIdeal := by
  intro m ρ m' ρ' _ hagree
  refine ⟨fun c => Cert.Gru.KerRun.outArr m c, Cert.Gru.KerRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  show _ = Cert.Gru.KerRun.outArr m c
  rw [Cert.ReferenceIdeal.Read.val_main_v36_eq, Cert.Gru.Ref.result_eq, Cert.Gru.KerRun.outArr_eq,
    a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
